-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x256 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x256 .f32) (main_arg8 : FVec F S128 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S_ : Shape := ⟨0, ![]⟩
abbrev S600000x1 : Shape := ⟨2, ![600000, 1]⟩
abbrev S600000x128 : Shape := ⟨2, ![600000, 128]⟩
abbrev S600000x129 : Shape := ⟨2, ![600000, 129]⟩
abbrev S100000x129 : Shape := ⟨2, ![100000, 129]⟩
abbrev S100000x1 : Shape := ⟨2, ![100000, 1]⟩
abbrev S256x128 : Shape := ⟨2, ![256, 128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 44
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S600000x1, .f32⟩
  | .hbm, ⟨22, _⟩ => ⟨S600000x129, .f32⟩
  | .hbm, ⟨23, _⟩ => ⟨S_, .f32⟩
  | .hbm, ⟨24, _⟩ => ⟨S100000x129, .f32⟩
  | .hbm, ⟨25, _⟩ => ⟨S600000x1, .i32⟩
  | .hbm, ⟨26, _⟩ => ⟨S100000x129, .f32⟩
  | .hbm, ⟨27, _⟩ => ⟨S100000x128, .f32⟩
  | .hbm, ⟨28, _⟩ => ⟨S100000x1, .f32⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S256x128, .f32⟩
  | .hbm, ⟨34, _⟩ => ⟨S128x128, .f32⟩
  | .hbm, ⟨35, _⟩ => ⟨S128x128, .bf16⟩
  | .hbm, ⟨36, _⟩ => ⟨S128x128, .f32⟩
  | .hbm, ⟨37, _⟩ => ⟨S128x128, .bf16⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  concatenates_S600000x128_S600000x1_S600000x129_d1 : Shape.Concatenates [S600000x128, S600000x1] S600000x129 1
  bcast_S_S100000x129 : S_.BroadcastsInDim S100000x129 (![] : Fin 0 → Fin S100000x129.rank)
  slices_S100000x129_S100000x128_0_0 : S100000x129.Slices ![0, 0] S100000x128
  slices_S100000x129_S100000x1_0_128 : S100000x129.Slices ![0, 128] S100000x1
  transposes_S128x128_S128x128_1_0 : S128x128.Transposes [1, 0] S128x128
  bitsLt_bf16_f32 : FTy.bits .bf16 < FTy.bits .f32
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  natLt_1_32 : 1 < 32
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  gather_S100000x128_S600000x1_S600000x128_1_0_n_n_0_1_1128_wf : GatherDims.WF S100000x128 S600000x1 S600000x128 [1] [0] [] [0] [] 1 ![1, 128]
  scatter_S100000x129_S600000x1_S600000x129_1_0_0_1_wf : ScatterDims.WF S100000x129 S600000x1 S600000x129 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S100000x128.size a
  hwx0_12 : ∀ i : grid0.Coords, EltTy.bits .f32 = 32 ∨ (Rect.block (s := S100000x128) S4000x128.size (cc0_transform_12 i) (hinb0_12 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x129_S600000x1_S600000x129_1_0_0_1 : ScatterDims S100000x129 S600000x1 S600000x129 where
  updateWindowDims := [1]
  insertedWindowDims := [0]
  scatterDimsToOperandDims := [0]
  indexVectorDim := 1
  wf := scatter_S100000x129_S600000x1_S600000x129_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S4000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S100000, .f32⟩
  | .hbm, ⟨39, _⟩ => ⟨S100000x1, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x256, .f32⟩
  | .hbm, ⟨55, _⟩ => ⟨S256x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call0_cst : Ref sig .tc := ⟨.hbm, 103, rfl⟩
abbrev main_call0_v0 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The layer as one function of its argument arrays, at the extended reals (every float an extended real, every
  operation the exact one, a change of format the identity).

  A node `n` has a feature row `h n` of 128 entries, the sum `ns n` of the feature rows of its predecessors (one
  term per incoming edge) and the number `cnt n` of its incoming edges. Its output row is a function of these three and of
  the weights only, `rowOut`:

    self      = h · Wsᵀ + bs                               (`lin`)
    neighbour = (ns / max cnt 1) · Wnᵀ + bn                (`nmean`, `lin`)
    m         = self + [cnt > 0] · neighbour               (`msg`, `hasPred`)
    g         = logistic (h · Wghᵀ + m · Wgmᵀ + bg)         (`gate`: the gate weight [128, 256] read as two [128, 128] halves)
    v         = g · m + (1 − g) · h                         (`mix`)
    out       = max (((v − μ) · rsqrt (σ² + ε)) · γ + β) 0   (`normRelu`: μ, σ² the mean and the mean square deviation of v over its 128 entries)

  The weights enter transposed, as functions `WT k d` of the contracted coordinate `k` and the output coordinate `d`:
  both programs contract a row with a [k, d] table. The float literals 0, 1, 128 and ε are kept as the 32-bit words both
  programs print; nothing below evaluates them. `G` is the whole result array: row `n`, column `d` is `rowOut` of row
  `n`'s data at `d`.
-/
import Idealize.ShloMosaic.PureOps.Ideal
import Idealize.ShloMosaic.PureOps.Ideal.Laws
import Idealize.ShloMosaic.Lib.ValueIdx

noncomputable section

open scoped BigOperators

namespace Cert.GatedLayer

open Idealize.ShloMosaic Idealize.ShloMosaic.ValueIdx

/-- The float literals of the layer, as the words both programs print: 0, 1, 128 and ε. -/
abbrev zeroW : EReal := Ideal.ofBits .f32 0x00000000#32
abbrev oneW : EReal := Ideal.ofBits .f32 0x3F800000#32
abbrev widthW : EReal := Ideal.ofBits .f32 0x43000000#32
abbrev epsW : EReal := Ideal.ofBits .f32 0x3727C5AC#32

/-- A row times a transposed weight table, plus a bias: entry `d` is `∑ k, x k · WT k d + b d`. -/
def lin (x : Fin 128 → EReal) (WT : Fin 128 → Fin 128 → EReal) (b : Fin 128 → EReal) (d : Fin 128) : EReal :=
  (∑ k : Fin 128, x k * WT k d) + b d

/-- The indicator of "has a predecessor": the comparison `cnt > 0` as a one-bit word, read as the number 0 or 1. -/
def hasPred (cnt : EReal) : EReal := (((Ideal.cmp .ogt cnt zeroW).toNat : ℝ) : EReal)

/-- The mean of the predecessors' rows: the sum divided by the count, the count raised to at least 1. -/
def nmean (ns : Fin 128 → EReal) (cnt : EReal) (k : Fin 128) : EReal := Ideal.div (ns k) (max cnt oneW)

/-- The message row: the self transform plus, for a node with a predecessor, the transform of the neighbour mean. -/
def msg (h ns : Fin 128 → EReal) (cnt : EReal) (WsT WnT : Fin 128 → Fin 128 → EReal) (bs bn : Fin 128 → EReal) (d : Fin 128) : EReal :=
  lin h WsT bs d + hasPred cnt * lin (nmean ns cnt) WnT bn d

/-- The gate row: the logistic function of `h · Wghᵀ + m · Wgmᵀ + bg`. -/
def gate (h m : Fin 128 → EReal) (WghT WgmT : Fin 128 → Fin 128 → EReal) (bg : Fin 128 → EReal) (d : Fin 128) : EReal :=
  Ideal.logistic (((∑ k : Fin 128, h k * WghT k d) + ∑ k : Fin 128, m k * WgmT k d) + bg d)

/-- The gated mix of the message and the feature row. -/
def mix (h m g : Fin 128 → EReal) (d : Fin 128) : EReal := g d * m d + (oneW - g d) * h d

/-- The mean of a row of 128 entries. -/
def mean (v : Fin 128 → EReal) : EReal := Ideal.div (∑ d : Fin 128, v d) widthW

/-- Layer normalisation over the row (biased variance), the affine map by γ and β, then the positive part. -/
def normRelu (v gam bet : Fin 128 → EReal) (d : Fin 128) : EReal :=
  max (((v d - mean v) * Ideal.rsqrt (mean (fun e => (v e - mean v) * (v e - mean v)) + epsW)) * gam d + bet d) zeroW

/-- A node's output row from its feature row, the sum of its predecessors' rows, its number of predecessors, and the weights. -/
def rowOut (h ns : Fin 128 → EReal) (cnt : EReal) (WsT WnT WghT WgmT : Fin 128 → Fin 128 → EReal)
    (bs bn bg gam bet : Fin 128 → EReal) : Fin 128 → EReal :=
  normRelu (mix h (msg h ns cnt WsT WnT bs bn) (gate h (msg h ns cnt WsT WnT bs bn) WghT WgmT bg)) gam bet

/-- The result array: entry `(n, d)` is `rowOut` of row `n` of `H` and `NS`, entry `n` of `CT`, and the weights read
    transposed (`Ws`, `Wn` as [d, k] tables; `Wg` as a [d, 256] table whose columns 0 … 127 meet the feature row and
    128 … 255 the message row), at `d`. -/
def G (H NS : (⟨2, ![100000, 128]⟩ : Shape).Idx → EReal) (CT : (⟨1, ![100000]⟩ : Shape).Idx → EReal)
    (Ws Wn : (⟨2, ![128, 128]⟩ : Shape).Idx → EReal) (Wg : (⟨2, ![128, 256]⟩ : Shape).Idx → EReal)
    (bs bn bg gam bet : (⟨1, ![128]⟩ : Shape).Idx → EReal) : (⟨2, ![100000, 128]⟩ : Shape).Idx → EReal :=
  fun i => rowOut (fun k => H (ix2 (i 0) k)) (fun k => NS (ix2 (i 0) k)) (CT (ix1 (i 0)))
    (fun k d => Ws (ix2 d k)) (fun k d => Wn (ix2 d k))
    (fun k d => Wg (ix2 d (⟨k.val, by have := k.isLt; omega⟩ : Fin 256)))
    (fun k d => Wg (ix2 d (⟨128 + k.val, by have := k.isLt; omega⟩ : Fin 256)))
    (fun d => bs (ix1 d)) (fun d => bn (ix1 d)) (fun d => bg (ix1 d)) (fun d => gam (ix1 d)) (fun d => bet (ix1 d)) (i 1)

/-- `G` at the index of coordinates `(n, d)`. -/
theorem G_ix2 (H NS : (⟨2, ![100000, 128]⟩ : Shape).Idx → EReal) (CT : (⟨1, ![100000]⟩ : Shape).Idx → EReal)
    (Ws Wn : (⟨2, ![128, 128]⟩ : Shape).Idx → EReal) (Wg : (⟨2, ![128, 256]⟩ : Shape).Idx → EReal)
    (bs bn bg gam bet : (⟨1, ![128]⟩ : Shape).Idx → EReal) (n : Fin 100000) (d : Fin 128) :
    G H NS CT Ws Wn Wg bs bn bg gam bet (ix2 n d)
      = rowOut (fun k => H (ix2 n k)) (fun k => NS (ix2 n k)) (CT (ix1 n))
          (fun k d => Ws (ix2 d k)) (fun k d => Wn (ix2 d k))
          (fun k d => Wg (ix2 d (⟨k.val, by have := k.isLt; omega⟩ : Fin 256)))
          (fun k d => Wg (ix2 d (⟨128 + k.val, by have := k.isLt; omega⟩ : Fin 256)))
          (fun d => bs (ix1 d)) (fun d => bn (ix1 d)) (fun d => bg (ix1 d)) (fun d => gam (ix1 d)) (fun d => bet (ix1 d)) d := rfl

/-- A one-bit word widened to 32 bits with zeros and read signed is the word read unsigned: both are 0 or 1. -/
theorem toInt_setWidth_one (c : BitVec 1) : (((c.setWidth 32).toInt : ℝ) : EReal) = ((c.toNat : ℝ) : EReal) := by
  have h : ∀ c : BitVec 1, (c.setWidth 32).toInt = (c.toNat : ℤ) := by decide
  rw [h c]; norm_cast

end Cert.GatedLayer

end
-- ==== Proof.KernelRow.lean ====
/-
  The kernel's stored block read at one element.

  The kernel body computes, from the twelve blocks it loads, one [4000, 128] block that it stores. Here that block is read at
  the element of coordinates (p, q): it is `rowOut` (the layer's output row as a function of one node's data) of row `p` of
  the feature block, row `p` of the neighbour-sum block, entry `p` of the count column and the weight blocks, at `q`.

  Every operation of the body is either pointwise (read at an index it is the same operation on the elements), a layout
  operation (a row or a column repeated, a vector viewed as a column), a product of a [4000, 128] block with a [128, 128] table
  (element (p, d) is the sum over k of left (p, k) times right (k, d)) or a sum along a row (element p is the sum over d of the
  source at (p, d)). The small lemmas below read each of the non-pointwise ones at an index written by its coordinates; the two
  theorems at the end push the index through the body. Both sides are extended reals built by the same operations in the same
  order, so no law of arithmetic is used.
-/
import proofs.«142222_j46694884442362_2_alg».proof.Proof.Gen.KernelIdeal.Skeleton
import proofs.«142222_j46694884442362_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RowValue

open Cert.KernelIdeal Cert.KernelIdeal.Gen Cert.GatedLayer Idealize.ShloMosaic Idealize.ShloMosaic.ValueIdx

/-! ## The non-pointwise operations at an index -/

/-- The dimension numbers of every product in the body: a [4000, 128] block times a [128, 128] table, contracting the block's
    axis 1 with the table's axis 0. -/
abbrev dotD : DotDims S4000x128 S128x128 S4000x128 := dot_S4000x128_S128x128_S4000x128_1_0_0_1_n_n

/-- The left operand's index at output index `i` and contraction position `c` keeps `i`'s row … -/
theorem lhs_row (i : S4000x128.Idx) (c : dotD.contr.Idx) : (dotD.lhsIdx i c 0).val = (i 0).val := by
  unfold DotDims.lhsIdx
  rw [dif_neg (show ¬(0 : Fin S4000x128.rank) ∈ dotD.lhsBatch by decide),
    dif_pos (show (0 : Fin S4000x128.rank) ∈ dotD.lhsNonContracting by decide)]
  rfl
/-- … and has the contraction position as its column. -/
theorem lhs_col (i : S4000x128.Idx) (c : dotD.contr.Idx) : (dotD.lhsIdx i c 1).val = (c ⟨0, by decide⟩).val :=
  dotD.lhsIdx_val_of_single rfl i c
/-- The right operand's index has the contraction position as its row … -/
theorem rhs_row (i : S4000x128.Idx) (c : dotD.contr.Idx) : (dotD.rhsIdx i c 0).val = (c ⟨0, by decide⟩).val :=
  dotD.rhsIdx_val_of_single rfl i c
/-- … and keeps `i`'s column. -/
theorem rhs_col (i : S4000x128.Idx) (c : dotD.contr.Idx) : (dotD.rhsIdx i c 1).val = (i 1).val := by
  unfold DotDims.rhsIdx
  rw [dif_neg (show ¬(1 : Fin S128x128.rank) ∈ dotD.rhsBatch by decide),
    dif_pos (show (1 : Fin S128x128.rank) ∈ dotD.rhsNonContracting by decide)]
  rfl

/-- A product into the zero block, at (p, d): the sum over k of the left operand at (p, k) times the right one at (k, d). -/
theorem matmul_zero_apply {φ₁ φ₂ : FTy} (l : FVec Ideal S4000x128 φ₁) (r : FVec Ideal S128x128 φ₂) (p : Fin 4000) (d : Fin 128) :
    matmul dot_S4000x128_S128x128_S4000x128_1_0_0_1_n_n none l r (constant (F := Ideal) S4000x128 .f32 0x00000000#32) (ix2 p d)
      = ∑ k : Fin 128, l (ix2 p k) * r (ix2 k d) := by
  simp only [matmul]
  rw [Ideal.matmul_constant_zero_apply, ← Equiv.sum_comp (contrEquiv1 dotD 128 rfl rfl).symm]
  refine Finset.sum_congr rfl fun k _ => ?_
  have hk := contrEquiv1_symm_val dotD 128 rfl rfl k
  have el : dotD.lhsIdx (ix2 p d) ((contrEquiv1 dotD 128 rfl rfl).symm k) = ix2 p k := funext fun a => Fin.ext (by
    match a with
    | ⟨0, _⟩ => exact lhs_row _ _
    | ⟨1, _⟩ => exact (lhs_col _ _).trans hk)
  have er : dotD.rhsIdx (ix2 p d) ((contrEquiv1 dotD 128 rfl rfl).symm k) = ix2 k d := funext fun a => Fin.ext (by
    match a with
    | ⟨0, _⟩ => exact (rhs_row _ _).trans hk
    | ⟨1, _⟩ => exact rhs_col _ _)
  rw [el, er]

/-- A column repeated along the rows: an [a, 1] array broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector viewed as a column: an [a] array cast to [a, 1] reads, at (p, u), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along a row: the reduction of a [4000, 128] block over axis 1 reads, at p, the sum over d of the block at (p, d). -/
theorem rowSum_apply (v : FVec Ideal S4000x128 .f32) (h : S4000x128.Reduces [1] S4000) (hφ : FKind.Formats .f32)
    (hacc : (0x00000000#32 : BitVec 32) = 0x00000000#32) (p : Fin 4000) :
    multiReduction (F := Ideal) .add [1] S4000 v 0x00000000#32 h hφ hacc (ix1 p) = ∑ d : Fin 128, v (ix2 p d) := by
  refine (Ideal.multiReduction_add_single v 0x00000000#32 h hφ hacc (ix1 p)).trans ?_
  refine Finset.sum_congr rfl fun d _ => congrArg v ?_
  funext ax
  match ax with
  | ⟨0, _⟩ => rfl
  | ⟨1, _⟩ => rfl

/-- The indicator of a positive count as the body computes it: the comparison's bit widened to a 32-bit word, read signed and
    converted; it is the bit read as the number 0 or 1. -/
theorem hasPred_apply (c : EReal) :
    (FloatOps.sitofp (F := Ideal) .f32 ((FloatOps.cmpf (F := Ideal) (φ := .f32) .ogt c (Ideal.ofBits .f32 0x00000000#32)).setWidth 32) : EReal)
      = hasPred c := by
  show ((((Ideal.cmp .ogt c zeroW).setWidth 32).toInt : ℝ) : EReal) = _
  exact toInt_setWidth_one _

/-- The logistic function at an index is the logistic function of the element … -/
theorem logistic_apply {s : Shape} {φ : FTy} (a : FVec Ideal s φ) (i : s.Idx) : logistic a i = Ideal.logistic (a i) := rfl
/-- … and the reciprocal square root likewise. -/
theorem rsqrt_apply {s : Shape} {φ : FTy} (a : FVec Ideal s φ) (i : s.Idx) : rsqrt a i = Ideal.rsqrt (a i) := rfl

/-! ## The body's five values at an index -/

/-- The message block at (p, d) is the message row of node p's data at d. -/
theorem pay2_apply (x0 x1 : Vec Ideal S4000x128 .f32) (x2 : Vec Ideal S4000x1 .f32) (x3 : Vec Ideal S128x128 .bf16) (x4 : Vec Ideal S1x128 .f32)
    (x5 : Vec Ideal S128x128 .bf16) (x6 : Vec Ideal S1x128 .f32) (p : Fin 4000) (d : Fin 128) :
    k0_pay2 (F := Ideal) x0 x1 x2 x3 x4 x5 x6 (ix2 p d)
      = msg (fun k => x0 (ix2 p k)) (fun k => x1 (ix2 p k)) (x2 (ix2 p 0)) (fun k d => x3 (ix2 k d)) (fun k d => x5 (ix2 k d))
          (fun d => x4 (ix2 0 d)) (fun d => x6 (ix2 0 d)) d := by
  unfold k0_pay2 k0_pay1
  simp only [shapeCast_self]
  simp only [addf_apply, mulf_apply]
  rw [matmul_zero_apply, matmul_zero_apply, broadcastTo_1b_ab_apply, broadcastTo_1b_ab_apply, broadcastTo_a1_ab_apply]
  simp only [truncf_apply, divf_apply, broadcastTo_a1_ab_apply, maximumf_apply, broadcast_apply, sitofp_apply, extui_apply,
    cmpf_apply, Ideal.ofBits_def]
  rw [hasPred_apply]
  rfl

/-- Its copy in the narrower format is the same extended real. -/
theorem pay3_apply (x0 x1 : Vec Ideal S4000x128 .f32) (x2 : Vec Ideal S4000x1 .f32) (x3 : Vec Ideal S128x128 .bf16) (x4 : Vec Ideal S1x128 .f32)
    (x5 : Vec Ideal S128x128 .bf16) (x6 : Vec Ideal S1x128 .f32) (i : S4000x128.Idx) :
    k0_pay3 (F := Ideal) x0 x1 x2 x3 x4 x5 x6 i = k0_pay2 (F := Ideal) x0 x1 x2 x3 x4 x5 x6 i := rfl

/-- The feature block times the first gate table, at (p, d). -/
theorem pay4_apply (x0 : Vec Ideal S4000x128 .f32) (x7 : Vec Ideal S128x128 .bf16) (p : Fin 4000) (d : Fin 128) :
    k0_pay4 (F := Ideal) x0 x7 (ix2 p d) = ∑ k : Fin 128, x0 (ix2 p k) * x7 (ix2 k d) := by
  unfold k0_pay4 k0_pay1
  simp only [shapeCast_self]
  rw [matmul_zero_apply]
  simp only [truncf_apply]

/-- The stored block at (p, q), for any message block, any narrower copy of it and any first gate product: the normalised
    positive part of the gated mix of row p, the gate being the logistic function of the first gate product plus the copy's
    row times the second gate table plus the bias. -/
theorem pay5_apply (x0 : Vec Ideal S4000x128 .f32) (v31 : FVec Ideal S4000x128 .f32) (v32 : FVec Ideal S4000x128 .bf16)
    (v35 : FVec Ideal S4000x128 .f32) (x8 : Vec Ideal S128x128 .bf16) (x9 x10 x11 : Vec Ideal S1x128 .f32) (p : Fin 4000) (q : Fin 128) :
    k0_pay5 (F := Ideal) x0 v31 v32 v35 x8 x9 x10 x11 (ix2 p q)
      = normRelu (mix (fun k => x0 (ix2 p k)) (fun k => v31 (ix2 p k))
            (fun d => Ideal.logistic ((v35 (ix2 p d) + ∑ k : Fin 128, v32 (ix2 p k) * x8 (ix2 k d)) + x9 (ix2 0 d))))
          (fun d => x10 (ix2 0 d)) (fun d => x11 (ix2 0 d)) q := by
  unfold k0_pay5
  simp only [shapeCast_self]
  simp only [maximumf_apply, addf_apply, mulf_apply, subf_apply, divf_apply, broadcast_apply, logistic_apply, rsqrt_apply,
    broadcastTo_1b_ab_apply, broadcastTo_a1_ab_apply, shapeCast_a_a1_apply, matmul_zero_apply, Ideal.ofBits_def]
  rw [rowSum_apply, rowSum_apply]
  simp only [maximumf_apply, addf_apply, mulf_apply, subf_apply, divf_apply, broadcast_apply, logistic_apply, rsqrt_apply,
    broadcastTo_1b_ab_apply, broadcastTo_a1_ab_apply, shapeCast_a_a1_apply, matmul_zero_apply, Ideal.ofBits_def]
  rw [rowSum_apply]
  simp only [maximumf_apply, addf_apply, mulf_apply, subf_apply, divf_apply, broadcast_apply, logistic_apply, rsqrt_apply,
    broadcastTo_1b_ab_apply, broadcastTo_a1_ab_apply, shapeCast_a_a1_apply, matmul_zero_apply, Ideal.ofBits_def]
  rfl

/-- THE STORED BLOCK AT (p, q) is the layer's output row of node p's data — its feature row, its neighbour sum, its count —
    and the weight blocks, at q. -/
theorem pay_eq (x0 x1 : Vec Ideal S4000x128 .f32) (x2 : Vec Ideal S4000x1 .f32) (x3 : Vec Ideal S128x128 .bf16) (x4 : Vec Ideal S1x128 .f32)
    (x5 : Vec Ideal S128x128 .bf16) (x6 : Vec Ideal S1x128 .f32) (x7 x8 : Vec Ideal S128x128 .bf16) (x9 x10 x11 : Vec Ideal S1x128 .f32)
    (p : Fin 4000) (q : Fin 128) :
    k0_pay5 (F := Ideal) x0 (k0_pay2 x0 x1 x2 x3 x4 x5 x6) (k0_pay3 x0 x1 x2 x3 x4 x5 x6) (k0_pay4 x0 x7) x8 x9 x10 x11 (ix2 p q)
      = rowOut (fun k => x0 (ix2 p k)) (fun k => x1 (ix2 p k)) (x2 (ix2 p 0))
          (fun k d => x3 (ix2 k d)) (fun k d => x5 (ix2 k d)) (fun k d => x7 (ix2 k d)) (fun k d => x8 (ix2 k d))
          (fun d => x4 (ix2 0 d)) (fun d => x6 (ix2 0 d)) (fun d => x9 (ix2 0 d)) (fun d => x10 (ix2 0 d)) (fun d => x11 (ix2 0 d)) q := by
  rw [pay5_apply]
  simp only [pay3_apply, pay2_apply, pay4_apply]
  rfl

end Cert.KernelIdeal.RowValue

end
-- ==== Proof.KernelArray.lean ====
/-
  From the kernel's blocks to its result array.

  The grid has 25 points. At point `t` the three row-tiled inputs (the features, the neighbour sums, the counts column) and
  the output are staged at block `(t, 0)` — rows `4000 t … 4000 t + 3999` —, the nine weight and bias tables whole. The
  body's one store is a per-row function of its loads (the module that reads the payload: row `p`, column `q` of the stored
  block is `rowOut` of row `p` of the loaded blocks at `q`), so the block point `t` writes back is block `t` of ONE array
  function `GK` of the twelve staged arrays; the 25 blocks cover the 100000 rows (row `r` lies in block `r / 4000`), hence the
  output array ends at `GK` of the arrays as the region finds them. Every statement about a block is made over VARIABLE
  arrays first and instantiated at the region's contents afterwards, so those contents are never opened here.
-/
import proofs.«142222_j46694884442362_2_alg».proof.Proof.Gen.KernelIdeal.Value
import proofs.«142222_j46694884442362_2_alg».proof.Proof.KernelRow
import proofs.«142222_j46694884442362_2_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.ArrayValue

open Cert.KernelIdeal Cert.KernelIdeal.Gen Cert.KernelIdeal.Value Cert.GatedLayer
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The result array in terms of the twelve arrays the windows stage: row `n` is `rowOut` of row `n` of the first three
    (features, neighbour sums, the counts column) and of the nine resident tables, read as the body reads them. -/
def GK (A0 A1 : S100000x128.Idx → EReal) (A2 : S100000x1.Idx → EReal) (A3 : S128x128.Idx → EReal) (A4 : S1x128.Idx → EReal)
    (A5 : S128x128.Idx → EReal) (A6 : S1x128.Idx → EReal) (A7 A8 : S128x128.Idx → EReal) (A9 A10 A11 : S1x128.Idx → EReal) :
    S100000x128.Idx → EReal :=
  fun i => rowOut (fun k => A0 (ix2 (i 0) k)) (fun k => A1 (ix2 (i 0) k)) (A2 (ix2 (i 0) (0 : Fin 1)))
    (fun k d => A3 (ix2 k d)) (fun k d => A5 (ix2 k d)) (fun k d => A7 (ix2 k d)) (fun k d => A8 (ix2 k d))
    (fun d => A4 (ix2 (0 : Fin 1) d)) (fun d => A6 (ix2 (0 : Fin 1) d)) (fun d => A9 (ix2 (0 : Fin 1) d))
    (fun d => A10 (ix2 (0 : Fin 1) d)) (fun d => A11 (ix2 (0 : Fin 1) d)) (i 1)

/-- The printed index maps, decided over the 25 grid points: the three row-tiled inputs and the output are at block
    `(t, 0)`, the nine resident tables at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

variable (c : Dev nD) (t : Fin cfg0.N)

/-- A row-tiled window's block at point `t` holds rows `4000 t … 4000 t + 3999` of its array. -/
theorem read0 (A : Buf (Elt Ideal) ((c : Thread nD τ).loc main_arg0)) (p : Fin 4000) (k : Fin 128) :
    (((cfg0.win 0).blk t).view.read (Elt Ideal) A) (ix2 p k) = A (ix2 (⟨t.val * 4000 + p.val, by have := t.isLt; have := p.isLt; have : cfg0.N = 25 := N_0; omega⟩ : Fin 100000) k) := by
  obtain ⟨⟨e0, e1⟩, -⟩ := idx_facts t
  show A (((cfg0.win 0).blk t).view.emb (ix2 p k)) = A _
  refine congrArg A (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem read1 (A : Buf (Elt Ideal) ((c : Thread nD τ).loc main_v12)) (p : Fin 4000) (k : Fin 128) :
    (((cfg0.win 1).blk t).view.read (Elt Ideal) A) (ix2 p k) = A (ix2 (⟨t.val * 4000 + p.val, by have := t.isLt; have := p.isLt; have : cfg0.N = 25 := N_0; omega⟩ : Fin 100000) k) := by
  obtain ⟨-, ⟨e0, e1⟩, -⟩ := idx_facts t
  show A (((cfg0.win 1).blk t).view.emb (ix2 p k)) = A _
  refine congrArg A (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

/-- The counts window's block at point `t` holds entries `4000 t … 4000 t + 3999` of the counts column. -/
theorem read2 (A : Buf (Elt Ideal) ((c : Thread nD τ).loc main_v13)) (p : Fin 4000) :
    (((cfg0.win 2).blk t).view.read (Elt Ideal) A) (ix2 p (0 : Fin 1)) = A (ix2 (⟨t.val * 4000 + p.val, by have := t.isLt; have := p.isLt; have : cfg0.N = 25 := N_0; omega⟩ : Fin 100000) (0 : Fin 1)) := by
  obtain ⟨-, -, ⟨e0, e1⟩, -⟩ := idx_facts t
  show A (((cfg0.win 2).blk t).view.emb (ix2 p (0 : Fin 1))) = A _
  refine congrArg A (funext fun a => Fin.ext ?_)
  match a with
  | ⟨0, _⟩ => show win0_2.index t (0 : Fin 2) * 4000 + 1 * p.val = t.val * 4000 + p.val; omega
  | ⟨1, _⟩ => show win0_2.index t (1 : Fin 2) * 1 + 1 * 0 = 0; omega

/-- A resident table's block is the whole table at every point. -/
theorem read3 (A : Buf (Elt Ideal) ((c : Thread nD τ).loc main_v15)) (k : Fin 128) (d : Fin 128) :
    (((cfg0.win 3).blk t).view.read (Elt Ideal) A) (ix2 k d) = A (ix2 k d) := by
  obtain ⟨-, -, -, ⟨e0, e1⟩, -⟩ := idx_facts t
  show A (((cfg0.win 3).blk t).view.emb (ix2 k d)) = A _
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * d.val = d.val; omega

/-- A resident table's block is the whole table at every point. -/
theorem read4 (A : Buf (Elt Ideal) ((c : Thread nD τ).loc main_v23)) (k : Fin 1) (d : Fin 128) :
    (((cfg0.win 4).blk t).view.read (Elt Ideal) A) (ix2 k d) = A (ix2 k d) := by
  obtain ⟨-, -, -, -, ⟨e0, e1⟩, -⟩ := idx_facts t
  show A (((cfg0.win 4).blk t).view.emb (ix2 k d)) = A _
  refine congrArg A (funext fun a => Fin.ext ?_)
  match a with
  | ⟨0, _⟩ => show win0_4.index t (0 : Fin 2) * 1 + 1 * k.val = k.val; omega
  | ⟨1, _⟩ => show win0_4.index t (1 : Fin 2) * 128 + 1 * d.val = d.val; omega

/-- A resident table's block is the whole table at every point. -/
theorem read5 (A : Buf (Elt Ideal) ((c : Thread nD τ).loc main_v17)) (k : Fin 128) (d : Fin 128) :
    (((cfg0.win 5).blk t).view.read (Elt Ideal) A) (ix2 k d) = A (ix2 k d) := by
  obtain ⟨-, -, -, -, -, ⟨e0, e1⟩, -⟩ := idx_facts t
  show A (((cfg0.win 5).blk t).view.emb (ix2 k d)) = A _
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * d.val = d.val; omega

/-- A resident table's block is the whole table at every point. -/
theorem read6 (A : Buf (Elt Ideal) ((c : Thread nD τ).loc main_v24)) (k : Fin 1) (d : Fin 128) :
    (((cfg0.win 6).blk t).view.read (Elt Ideal) A) (ix2 k d) = A (ix2 k d) := by
  obtain ⟨-, -, -, -, -, -, ⟨e0, e1⟩, -⟩ := idx_facts t
  show A (((cfg0.win 6).blk t).view.emb (ix2 k d)) = A _
  refine congrArg A (funext fun a => Fin.ext ?_)
  match a with
  | ⟨0, _⟩ => show win0_6.index t (0 : Fin 2) * 1 + 1 * k.val = k.val; omega
  | ⟨1, _⟩ => show win0_6.index t (1 : Fin 2) * 128 + 1 * d.val = d.val; omega

/-- A resident table's block is the whole table at every point. -/
theorem read7 (A : Buf (Elt Ideal) ((c : Thread nD τ).loc main_v20)) (k : Fin 128) (d : Fin 128) :
    (((cfg0.win 7).blk t).view.read (Elt Ideal) A) (ix2 k d) = A (ix2 k d) := by
  obtain ⟨-, -, -, -, -, -, -, ⟨e0, e1⟩, -⟩ := idx_facts t
  show A (((cfg0.win 7).blk t).view.emb (ix2 k d)) = A _
  refine congrArg A (funext fun a => Fin.ext ?_)
  match a with
  | ⟨0, _⟩ => show win0_7.index t (0 : Fin 2) * 128 + 1 * k.val = k.val; omega
  | ⟨1, _⟩ => show win0_7.index t (1 : Fin 2) * 128 + 1 * d.val = d.val; omega

/-- A resident table's block is the whole table at every point. -/
theorem read8 (A : Buf (Elt Ideal) ((c : Thread nD τ).loc main_v22)) (k : Fin 128) (d : Fin 128) :
    (((cfg0.win 8).blk t).view.read (Elt Ideal) A) (ix2 k d) = A (ix2 k d) := by
  obtain ⟨-, -, -, -, -, -, -, -, ⟨e0, e1⟩, -⟩ := idx_facts t
  show A (((cfg0.win 8).blk t).view.emb (ix2 k d)) = A _
  refine congrArg A (funext fun a => Fin.ext ?_)
  match a with
  | ⟨0, _⟩ => show win0_8.index t (0 : Fin 2) * 128 + 1 * k.val = k.val; omega
  | ⟨1, _⟩ => show win0_8.index t (1 : Fin 2) * 128 + 1 * d.val = d.val; omega

/-- A resident table's block is the whole table at every point. -/
theorem read9 (A : Buf (Elt Ideal) ((c : Thread nD τ).loc main_v25)) (k : Fin 1) (d : Fin 128) :
    (((cfg0.win 9).blk t).view.read (Elt Ideal) A) (ix2 k d) = A (ix2 k d) := by
  obtain ⟨-, -, -, -, -, -, -, -, -, ⟨e0, e1⟩, -⟩ := idx_facts t
  show A (((cfg0.win 9).blk t).view.emb (ix2 k d)) = A _
  refine congrArg A (funext fun a => Fin.ext ?_)
  match a with
  | ⟨0, _⟩ => show win0_9.index t (0 : Fin 2) * 1 + 1 * k.val = k.val; omega
  | ⟨1, _⟩ => show win0_9.index t (1 : Fin 2) * 128 + 1 * d.val = d.val; omega

/-- A resident table's block is the whole table at every point. -/
theorem read10 (A : Buf (Elt Ideal) ((c : Thread nD τ).loc main_v26)) (k : Fin 1) (d : Fin 128) :
    (((cfg0.win 10).blk t).view.read (Elt Ideal) A) (ix2 k d) = A (ix2 k d) := by
  obtain ⟨-, -, -, -, -, -, -, -, -, -, ⟨e0, e1⟩, -⟩ := idx_facts t
  show A (((cfg0.win 10).blk t).view.emb (ix2 k d)) = A _
  refine congrArg A (funext fun a => Fin.ext ?_)
  match a with
  | ⟨0, _⟩ => show win0_10.index t (0 : Fin 2) * 1 + 1 * k.val = k.val; omega
  | ⟨1, _⟩ => show win0_10.index t (1 : Fin 2) * 128 + 1 * d.val = d.val; omega

/-- A resident table's block is the whole table at every point. -/
theorem read11 (A : Buf (Elt Ideal) ((c : Thread nD τ).loc main_v27)) (k : Fin 1) (d : Fin 128) :
    (((cfg0.win 11).blk t).view.read (Elt Ideal) A) (ix2 k d) = A (ix2 k d) := by
  obtain ⟨-, -, -, -, -, -, -, -, -, -, -, ⟨e0, e1⟩, -⟩ := idx_facts t
  show A (((cfg0.win 11).blk t).view.emb (ix2 k d)) = A _
  refine congrArg A (funext fun a => Fin.ext ?_)
  match a with
  | ⟨0, _⟩ => show win0_11.index t (0 : Fin 2) * 1 + 1 * k.val = k.val; omega
  | ⟨1, _⟩ => show win0_11.index t (1 : Fin 2) * 128 + 1 * d.val = d.val; omega

/-- `rowOut` of equal data is equal. -/
theorem rowOut_congr {h h' ns ns' : Fin 128 → EReal} {cnt cnt' : EReal} {WsT WsT' WnT WnT' WghT WghT' WgmT WgmT' : Fin 128 → Fin 128 → EReal}
    {bs bs' bn bn' bg bg' gam gam' bet bet' : Fin 128 → EReal}
    (e0 : h = h') (e1 : ns = ns') (e2 : cnt = cnt') (e3 : WsT = WsT') (e5 : WnT = WnT') (e7 : WghT = WghT') (e8 : WgmT = WgmT')
    (e4 : bs = bs') (e6 : bn = bn') (e9 : bg = bg') (e10 : gam = gam') (e11 : bet = bet') :
    rowOut h ns cnt WsT WnT WghT WgmT bs bn bg gam bet = rowOut h' ns' cnt' WsT' WnT' WghT' WgmT' bs' bn' bg' gam' bet' := by
  subst e0 e1 e2 e3 e5 e7 e8 e4 e6 e9 e10 e11; rfl

/-- THE TILE: at point `t` the body's stored block, at row `p` and column `q`, is the result array's entry at row
    `4000 t + p`, column `q` — whatever arrays the windows stage. -/
theorem tile_at (A0 : Buf (Elt Ideal) ((c : Thread nD τ).loc main_arg0)) (A1 : Buf (Elt Ideal) ((c : Thread nD τ).loc main_v12)) (A2 : Buf (Elt Ideal) ((c : Thread nD τ).loc main_v13)) (A3 : Buf (Elt Ideal) ((c : Thread nD τ).loc main_v15)) (A4 : Buf (Elt Ideal) ((c : Thread nD τ).loc main_v23)) (A5 : Buf (Elt Ideal) ((c : Thread nD τ).loc main_v17)) (A6 : Buf (Elt Ideal) ((c : Thread nD τ).loc main_v24)) (A7 : Buf (Elt Ideal) ((c : Thread nD τ).loc main_v20)) (A8 : Buf (Elt Ideal) ((c : Thread nD τ).loc main_v22)) (A9 : Buf (Elt Ideal) ((c : Thread nD τ).loc main_v25)) (A10 : Buf (Elt Ideal) ((c : Thread nD τ).loc main_v26)) (A11 : Buf (Elt Ideal) ((c : Thread nD τ).loc main_v27)) (p : Fin 4000) (q : Fin 128) :
    out0_12 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) (((cfg0.win 11).blk t).view.read (Elt Ideal) A11) (ix2 p q)
      = GK A0 A1 A2 A3 A4 A5 A6 A7 A8 A9 A10 A11 (ix2 (⟨t.val * 4000 + p.val, by have := t.isLt; have := p.isLt; have : cfg0.N = 25 := N_0; omega⟩ : Fin 100000) q) := by
  unfold out0_12
  rw [View.canon_unit_zero hz]
  simp only [View.ld_unit_zero (S := S4000x128) hz, View.ld_unit_zero (S := S4000x1) hz, View.ld_unit_zero (S := S128x128) hz, View.ld_unit_zero (S := S1x128) hz]
  rw [Cert.KernelIdeal.RowValue.pay_eq]
  show _ = rowOut (fun k => A0 (ix2 (⟨t.val * 4000 + p.val, by have := t.isLt; have := p.isLt; have : cfg0.N = 25 := N_0; omega⟩ : Fin 100000) k)) (fun k => A1 (ix2 (⟨t.val * 4000 + p.val, by have := t.isLt; have := p.isLt; have : cfg0.N = 25 := N_0; omega⟩ : Fin 100000) k)) (A2 (ix2 (⟨t.val * 4000 + p.val, by have := t.isLt; have := p.isLt; have : cfg0.N = 25 := N_0; omega⟩ : Fin 100000) (0 : Fin 1)))
    (fun k d => A3 (ix2 k d)) (fun k d => A5 (ix2 k d)) (fun k d => A7 (ix2 k d)) (fun k d => A8 (ix2 k d))
    (fun d => A4 (ix2 (0 : Fin 1) d)) (fun d => A6 (ix2 (0 : Fin 1) d)) (fun d => A9 (ix2 (0 : Fin 1) d))
    (fun d => A10 (ix2 (0 : Fin 1) d)) (fun d => A11 (ix2 (0 : Fin 1) d)) q
  exact congrFun (rowOut_congr (funext fun k => read0 c t A0 p k) (funext fun k => read1 c t A1 p k) (read2 c t A2 p)
    (funext fun k => funext fun d => read3 c t A3 k d) (funext fun k => funext fun d => read5 c t A5 k d)
    (funext fun k => funext fun d => read7 c t A7 k d) (funext fun k => funext fun d => read8 c t A8 k d)
    (funext fun d => read4 c t A4 0 d) (funext fun d => read6 c t A6 0 d) (funext fun d => read9 c t A9 0 d)
    (funext fun d => read10 c t A10 0 d) (funext fun d => read11 c t A11 0 d)) q

/-- The output window's block at point `t` sits at rows `4000 t … 4000 t + 3999` of the result array. -/
theorem tile (A0 : Buf (Elt Ideal) ((c : Thread nD τ).loc main_arg0)) (A1 : Buf (Elt Ideal) ((c : Thread nD τ).loc main_v12)) (A2 : Buf (Elt Ideal) ((c : Thread nD τ).loc main_v13)) (A3 : Buf (Elt Ideal) ((c : Thread nD τ).loc main_v15)) (A4 : Buf (Elt Ideal) ((c : Thread nD τ).loc main_v23)) (A5 : Buf (Elt Ideal) ((c : Thread nD τ).loc main_v17)) (A6 : Buf (Elt Ideal) ((c : Thread nD τ).loc main_v24)) (A7 : Buf (Elt Ideal) ((c : Thread nD τ).loc main_v20)) (A8 : Buf (Elt Ideal) ((c : Thread nD τ).loc main_v22)) (A9 : Buf (Elt Ideal) ((c : Thread nD τ).loc main_v25)) (A10 : Buf (Elt Ideal) ((c : Thread nD τ).loc main_v26)) (A11 : Buf (Elt Ideal) ((c : Thread nD τ).loc main_v27)) :
    (cfg0.win 12).cut (grid0.coords t) (out0_12 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) (((cfg0.win 11).blk t).view.read (Elt Ideal) A11))
      = ((cfg0.win 12).blk t).view.read (Elt Ideal) (GK A0 A1 A2 A3 A4 A5 A6 A7 A8 A9 A10 A11) := by
  obtain ⟨-, -, -, -, -, -, -, -, -, -, -, -, ⟨e0, e1⟩⟩ := idx_facts t
  funext j
  have hp : (j 0).val < 4000 := (j 0).isLt
  have hq : (j 1).val < 128 := (j 1).isLt
  have hj : (cfg0.win 12).xinj (grid0.coords t) j = ix2 (⟨(j 0).val, hp⟩ : Fin 4000) (⟨(j 1).val, hq⟩ : Fin 128) :=
    funext fun a => by match a with | ⟨0, _⟩ => rfl | ⟨1, _⟩ => rfl
  show out0_12 (F := Ideal) (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) (((cfg0.win 11).blk t).view.read (Elt Ideal) A11) ((cfg0.win 12).xinj (grid0.coords t) j)
      = GK A0 A1 A2 A3 A4 A5 A6 A7 A8 A9 A10 A11 (((cfg0.win 12).blk t).view.emb j)
  rw [hj, tile_at]
  refine congrArg (GK A0 A1 A2 A3 A4 A5 A6 A7 A8 A9 A10 A11) (funext fun a => Fin.ext ?_)
  match a with
  | ⟨0, _⟩ => show t.val * 4000 + (j 0).val = win0_12.index t (0 : Fin 2) * 4000 + 1 * (j 0).val; omega
  | ⟨1, _⟩ => show (j 1).val = win0_12.index t (1 : Fin 2) * 128 + 1 * (j 1).val; omega

/-! ## From the blocks to the array -/

variable (m : (ℓ : Loc nD τ sig) → Buf (Elt Ideal) ℓ) (ρ : Dev nD → PrngReg)

/-- The result array of the twelve arrays as the region finds them. -/
abbrev result (c : Dev nD) : Buf (Elt Ideal) ((c : Thread nD τ).loc main_v28) :=
  GK (V m c main_arg0) (V m c main_v12) (V m c main_v13) (V m c main_v15) (V m c main_v23) (V m c main_v17) (V m c main_v24) (V m c main_v20) (V m c main_v22) (V m c main_v25) (V m c main_v26) (V m c main_v27)

/-- WHAT POINT `t` WRITES BACK is block `t` of `result`. -/
theorem flushed_eq (c : Dev nD) (t : Fin cfg0.N) :
    (dats m 0 c).flushed 12 t = ((cfg0.win 12).blk t).view.read (Elt Ideal) (result m c) := by
  rw [flushed12]
  unfold iblk
  exact tile c t (V m c main_arg0) (V m c main_v12) (V m c main_v13) (V m c main_v15) (V m c main_v23) (V m c main_v17) (V m c main_v24) (V m c main_v20) (V m c main_v22) (V m c main_v25) (V m c main_v26) (V m c main_v27)

/-- An index of the array is in point `t`'s block iff each coordinate is in the block's range on its axis. -/
theorem mem_blk (t : Fin cfg0.N) (i : S100000x128.Idx) :
    i ∈ ((cfg0.win 12).blk t).view.set ↔ ∀ a : Fin 2, win0_12.index t a * S4000x128.size a ≤ (i a).val ∧ (i a).val < win0_12.index t a * S4000x128.size a + S4000x128.size a := by
  show i ∈ ((View.whole main_v28).slice (win0_12.rect t)).set ↔ _
  rw [View.set_slice_whole, Rect.mem_set_unit]
  exact Iff.rfl

/-- Every row of the array is in some point's block: row `r` in the block of point `r / 4000`. -/
theorem cover (i : S100000x128.Idx) : ∃ t : Fin cfg0.N, (cfg0.win 12).flush t = true ∧ i ∈ ((cfg0.win 12).blk t).view.set := by
  have hi0 : (i 0).val < 100000 := (i 0).isLt
  have hi1 : (i 1).val < 128 := (i 1).isLt
  have hN : cfg0.N = 25 := N_0
  have ht : (i 0).val / 4000 < cfg0.N := by rw [hN]; omega
  refine ⟨⟨(i 0).val / 4000, ht⟩, flush0_12 _, ?_⟩
  obtain ⟨-, -, -, -, -, -, -, -, -, -, -, -, ⟨e0, e1⟩⟩ := idx_facts ⟨(i 0).val / 4000, ht⟩
  rw [mem_blk]
  intro a
  match a with
  | ⟨0, _⟩ =>
    show win0_12.index ⟨(i 0).val / 4000, ht⟩ (0 : Fin 2) * 4000 ≤ (i 0).val ∧ (i 0).val < win0_12.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_12.index ⟨(i 0).val / 4000, ht⟩ (1 : Fin 2) * 128 ≤ (i 1).val ∧ (i 1).val < win0_12.index ⟨(i 0).val / 4000, ht⟩ (1 : Fin 2) * 128 + 128
    rw [e1]; omega

/-- THE ARRAY after the run is `result`. -/
theorem final (c : Dev nD) : (dats m 0 c).arrAt 12 cfg0.N = result m c :=
  (dats m 0 c).arrAt_eq_of_cover 12 (result m c) (fun t _ => flushed_eq m c t) cover

end Cert.KernelIdeal.ArrayValue

end
-- ==== Proof.KernelHost.lean ====
/-
  The arrays the kernel's windows stage, as the region finds them, in terms of the argument arrays.

  Before the region the program computes, on the host: the extended edge table `seg` — for every node the sum, over its
  incoming edges, of the source's feature row with a 1 appended (129 columns: the neighbour sums and, in column 128, the
  number of incoming edges) —, of which window 1 stages columns 0 … 127 and window 2 column 128; the three weight
  matrices transposed (the gate matrix transposed and cut into its two [128, 128] halves), stored in a narrower float
  format, which is the identity on extended reals; and the five vectors laid as one-row matrices.
-/
import proofs.«142222_j46694884442362_2_alg».proof.Proof.Gen.KernelIdeal.Frame
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.SL.Sem Idealize.ShloMosaic.StableHlo

/-- The edge sources as a column of row indices, a negative index wrapped once by the number of nodes. -/
def srcCol (x1 : (⟨S600000, .i32⟩ : BufTy).Contents (Elt Ideal)) : (⟨S600000x1, .i32⟩ : BufTy).Contents (Elt Ideal) :=
  broadcastInDim S600000x1 ![0] bcast_S600000_S600000x1_0
    (select (cmpi .slt x1 (broadcastInDim S600000 ![] bcast_S_S600000 (constantI S_ 32 0#32)))
      (addi x1 (broadcastInDim S600000 ![] bcast_S_S600000 (constantI S_ 32 100000#32))) x1)

/-- The gathered source rows with a column of ones appended: one row of 129 entries per edge. -/
def edgeRows (x0 : (⟨S100000x128, .f32⟩ : BufTy).Contents (Elt Ideal)) (x1 : (⟨S600000, .i32⟩ : BufTy).Contents (Elt Ideal)) : (⟨S600000x129, .f32⟩ : BufTy).Contents (Elt Ideal) :=
  concatenate S600000x129 1
    [⟨S600000x128, Host.gather gather_S100000x128_S600000x1_S600000x128_1_0_n_n_0_1_1128 x0 (srcCol x1)⟩,
     ⟨S600000x1, broadcastInDim S600000x1 ![] bcast_S_S600000x1 (constant (F := Ideal) S_ .f32 0x3F800000#32)⟩]
    concatenates_S600000x128_S600000x1_S600000x129_d1

/-- The extended edge table: the edge rows scatter-added into a zero [100000, 129] table at the edges' destinations. -/
def seg (x0 : (⟨S100000x128, .f32⟩ : BufTy).Contents (Elt Ideal)) (x1 x2 : (⟨S600000, .i32⟩ : BufTy).Contents (Elt Ideal)) : (⟨S100000x129, .f32⟩ : BufTy).Contents (Elt Ideal) :=
  Host.scatterAdd scatter_S100000x129_S600000x1_S600000x129_1_0_0_1
    (broadcastInDim S100000x129 ![] bcast_S_S100000x129 (constant (F := Ideal) S_ .f32 0x00000000#32))
    (broadcastInDim S600000x1 ![0] bcast_S600000_S600000x1_0 x2)
    (edgeRows x0 x1)

variable (m : (ℓ : Loc nD τ sig) → Buf (Elt Ideal) ℓ)

set_option maxHeartbeats 4000000 in
/-- Window 1's array: columns 0 … 127 of the extended edge table. -/
theorem V_v12 (c : Dev nD) : (V m c main_v12 : (⟨S100000x128, .f32⟩ : BufTy).Contents (Elt Ideal))
    = extractStridedSlice S100000x128 ![0, 0] (seg (m ((c : Thread nD τ).loc main_arg0)) (m ((c : Thread nD τ).loc main_arg1)) (m ((c : Thread nD τ).loc main_arg2))) slices_S100000x129_S100000x128_0_0 := by
  dsimp only [Gen.V, Gen.hostOps0]
  after_results_simp
  repeat (first
    | rw [nullary_result] | rw [unary_result] | rw [binary_result] | rw [ternary_result]
    | (rw [nullary_result_ne]; rotate_left; decide) | (rw [unary_result_ne]; rotate_left; decide)
    | (rw [binary_result_ne]; rotate_left; decide) | (rw [ternary_result_ne]; rotate_left; decide))
  rfl

set_option maxHeartbeats 4000000 in
/-- Window 2's array: column 128 of the extended edge table. -/
theorem V_v13 (c : Dev nD) : (V m c main_v13 : (⟨S100000x1, .f32⟩ : BufTy).Contents (Elt Ideal))
    = extractStridedSlice S100000x1 ![0, 128] (seg (m ((c : Thread nD τ).loc main_arg0)) (m ((c : Thread nD τ).loc main_arg1)) (m ((c : Thread nD τ).loc main_arg2))) slices_S100000x129_S100000x1_0_128 := by
  dsimp only [Gen.V, Gen.hostOps0]
  after_results_simp
  repeat (first
    | rw [nullary_result] | rw [unary_result] | rw [binary_result] | rw [ternary_result]
    | (rw [nullary_result_ne]; rotate_left; decide) | (rw [unary_result_ne]; rotate_left; decide)
    | (rw [binary_result_ne]; rotate_left; decide) | (rw [ternary_result_ne]; rotate_left; decide))
  rfl

/-- Window 3's array: the self weight transposed. -/
theorem V_v15 (c : Dev nD) : (V m c main_v15 : (⟨S128x128, .bf16⟩ : BufTy).Contents (Elt Ideal))
    = truncf (F := Ideal) .bf16 (transpose S128x128 [1, 0] (m ((c : Thread nD τ).loc main_arg3)) transposes_S128x128_S128x128_1_0) bitsLt_bf16_f32 := by
  dsimp only [Gen.V, Gen.hostOps0]; after_results <;> rfl

/-- Window 5's array: the neighbour weight transposed. -/
theorem V_v17 (c : Dev nD) : (V m c main_v17 : (⟨S128x128, .bf16⟩ : BufTy).Contents (Elt Ideal))
    = truncf (F := Ideal) .bf16 (transpose S128x128 [1, 0] (m ((c : Thread nD τ).loc main_arg5)) transposes_S128x128_S128x128_1_0) bitsLt_bf16_f32 := by
  dsimp only [Gen.V, Gen.hostOps0]; after_results <;> rfl

/-- Window 7's array: rows 0 … 127 of the gate weight transposed. -/
theorem V_v20 (c : Dev nD) : (V m c main_v20 : (⟨S128x128, .bf16⟩ : BufTy).Contents (Elt Ideal))
    = truncf (F := Ideal) .bf16 (extractStridedSlice S128x128 ![0, 0] (transpose S256x128 [1, 0] (m ((c : Thread nD τ).loc main_arg7)) transposes_S128x256_S256x128_1_0) slices_S256x128_S128x128_0_0) bitsLt_bf16_f32 := by
  dsimp only [Gen.V, Gen.hostOps0]; after_results <;> rfl

/-- Window 8's array: rows 128 … 255 of the gate weight transposed. -/
theorem V_v22 (c : Dev nD) : (V m c main_v22 : (⟨S128x128, .bf16⟩ : BufTy).Contents (Elt Ideal))
    = truncf (F := Ideal) .bf16 (extractStridedSlice S128x128 ![128, 0] (transpose S256x128 [1, 0] (m ((c : Thread nD τ).loc main_arg7)) transposes_S128x256_S256x128_1_0) slices_S256x128_S128x128_128_0) bitsLt_bf16_f32 := by
  dsimp only [Gen.V, Gen.hostOps0]; after_results <;> rfl

/-- Window 4's array: the self bias laid as one row. -/
theorem V_v23 (c : Dev nD) : (V m c main_v23 : (⟨S1x128, .f32⟩ : BufTy).Contents (Elt Ideal))
    = shapeCast S1x128 (m ((c : Thread nD τ).loc main_arg4)) shapeCasts_S128_S1x128 := by
  dsimp only [Gen.V, Gen.hostOps0]; after_results <;> rfl

/-- Window 6's array: the neighbour bias laid as one row. -/
theorem V_v24 (c : Dev nD) : (V m c main_v24 : (⟨S1x128, .f32⟩ : BufTy).Contents (Elt Ideal))
    = shapeCast S1x128 (m ((c : Thread nD τ).loc main_arg6)) shapeCasts_S128_S1x128 := by
  dsimp only [Gen.V, Gen.hostOps0]; after_results <;> rfl

/-- Window 9's array: the gate bias laid as one row. -/
theorem V_v25 (c : Dev nD) : (V m c main_v25 : (⟨S1x128, .f32⟩ : BufTy).Contents (Elt Ideal))
    = shapeCast S1x128 (m ((c : Thread nD τ).loc main_arg8)) shapeCasts_S128_S1x128 := by
  dsimp only [Gen.V, Gen.hostOps0]; after_results <;> rfl

/-- Window 10's array: the scale γ laid as one row. -/
theorem V_v26 (c : Dev nD) : (V m c main_v26 : (⟨S1x128, .f32⟩ : BufTy).Contents (Elt Ideal))
    = shapeCast S1x128 (m ((c : Thread nD τ).loc main_arg9)) shapeCasts_S128_S1x128 := by
  dsimp only [Gen.V, Gen.hostOps0]; after_results <;> rfl

/-- Window 11's array: the shift β laid as one row. -/
theorem V_v27 (c : Dev nD) : (V m c main_v27 : (⟨S1x128, .f32⟩ : BufTy).Contents (Elt Ideal))
    = shapeCast S1x128 (m ((c : Thread nD τ).loc main_arg10)) shapeCasts_S128_S1x128 := by
  dsimp only [Gen.V, Gen.hostOps0]; after_results <;> rfl

end Cert.KernelIdeal.HostValue

end
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.EdgeTables.lean ====
/-
  The kernel's extended edge table against the reference's two tables.

  The kernel's program scatter-adds, per edge, the source's feature row with a 1 appended (129 columns) into a zero table
  at the edge's destination, and cuts the result into columns 0 … 127 (the neighbour sums) and column 128 (the number of
  incoming edges). The reference scatter-adds the 128-column rows and, separately, a flat array of ones. Read at one entry,
  all of them are "0 plus the sum, over the edges whose destination is this node, of the edge's term": columns 0 … 127 of
  an extended row are the gathered row, column 128 is the 1. The destinations, the gathered rows and the ones are the same
  host terms on both sides, so the tables agree entry by entry.
-/
import proofs.«142222_j46694884442362_2_alg».proof.Proof.KernelHost
import proofs.«142222_j46694884442362_2_alg».proof.Proof.RefRead
import proofs.«142222_j46694884442362_2_alg».proof.Proof.LibScatterRows
import Idealize.ShloMosaic.Lib.ValueLayout

noncomputable section

open scoped BigOperators

namespace Cert.EdgeTables

open Idealize.ShloMosaic Idealize.ShloMosaic.ValueIdx Cert.Lib.ScatterRows Cert.KernelIdeal.HostValue

/-- An extended edge row at a column below 128 is the gathered source row there. -/
theorem edgeRows_left (x0 : (⟨Cert.KernelIdeal.S100000x128, .f32⟩ : BufTy).Contents (Elt Ideal)) (x1 : (⟨Cert.KernelIdeal.S600000, .i32⟩ : BufTy).Contents (Elt Ideal))
    (e : Fin 600000) (k : Fin 128) :
    edgeRows x0 x1 (ix2 e (⟨0 + k.val, by have := k.isLt; omega⟩ : Fin 129))
      = Host.gather Cert.KernelIdeal.gather_S100000x128_S600000x1_S600000x128_1_0_n_n_0_1_1128 x0 (srcCol x1) (ix2 e k) := by
  unfold edgeRows
  refine concatenate_pair_apply_left (t := Cert.KernelIdeal.S600000x129) (s₁ := Cert.KernelIdeal.S600000x128) (s₂ := Cert.KernelIdeal.S600000x1) 1 _ _ _ _ rfl (ix2 e k) ?_
  intro b
  match b with
  | ⟨0, _⟩ => rfl
  | ⟨1, _⟩ => show k.val = 0 + k.val; omega

/-- An extended edge row at column 128 is the literal 1. -/
theorem edgeRows_right (x0 : (⟨Cert.KernelIdeal.S100000x128, .f32⟩ : BufTy).Contents (Elt Ideal)) (x1 : (⟨Cert.KernelIdeal.S600000, .i32⟩ : BufTy).Contents (Elt Ideal))
    (e : Fin 600000) :
    edgeRows x0 x1 (ix2 e (⟨128 + (0 : Fin 1).val, by omega⟩ : Fin 129)) = Ideal.ofBits .f32 0x3F800000#32 := by
  unfold edgeRows
  refine (concatenate_pair_apply_right (t := Cert.KernelIdeal.S600000x129) (s₁ := Cert.KernelIdeal.S600000x128) (s₂ := Cert.KernelIdeal.S600000x1) 1 _ _ _ _ rfl rfl (ix2 e (0 : Fin 1)) ?_ ?_).trans rfl
  · intro b hb
    match b with
    | ⟨0, _⟩ => rfl
    | ⟨1, _⟩ => exact absurd rfl hb
  · rfl

/-- THE NEIGHBOUR SUMS: columns 0 … 127 of the kernel's extended table are the reference's 128-column table. -/
theorem ns_eq (x0 : (⟨Cert.KernelIdeal.S100000x128, .f32⟩ : BufTy).Contents (Elt Ideal)) (x1 x2 : (⟨Cert.KernelIdeal.S600000, .i32⟩ : BufTy).Contents (Elt Ideal))
    (n : Fin 100000) (k : Fin 128) :
    extractStridedSlice Cert.KernelIdeal.S100000x128 ![0, 0] (seg x0 x1 x2) Cert.KernelIdeal.Gen.slices_S100000x129_S100000x128_0_0 (ix2 n k)
      = Cert.ReferenceIdeal.ReadP.val_main_v14 (F := Ideal) x0 x1 x2 (ix2 n k) := by
  rw [slice2_axis1_eq 0 (seg x0 x1 x2) Cert.KernelIdeal.Gen.slices_S100000x129_S100000x128_0_0 n k]
  unfold seg Cert.ReferenceIdeal.ReadP.val_main_v14
  rw [host_scatterAdd_rows_apply _ rfl rfl rfl rfl, host_scatterAdd_rows_apply _ rfl rfl rfl rfl]
  refine congrArg₂ (· + ·) rfl (Finset.sum_congr rfl fun e _ => ?_)
  rw [edgeRows_left]
  rfl

/-- THE COUNTS: column 128 of the kernel's extended table is the reference's flat table of counts. -/
theorem ct_eq (x0 : (⟨Cert.KernelIdeal.S100000x128, .f32⟩ : BufTy).Contents (Elt Ideal)) (x1 x2 : (⟨Cert.KernelIdeal.S600000, .i32⟩ : BufTy).Contents (Elt Ideal))
    (n : Fin 100000) :
    extractStridedSlice Cert.KernelIdeal.S100000x1 ![0, 128] (seg x0 x1 x2) Cert.KernelIdeal.Gen.slices_S100000x129_S100000x1_0_128 (ix2 n (0 : Fin 1))
      = Cert.ReferenceIdeal.ReadP.val_main_v18 (F := Ideal) x2 (ix1 n) := by
  rw [slice2_axis1_eq 128 (seg x0 x1 x2) Cert.KernelIdeal.Gen.slices_S100000x129_S100000x1_0_128 n (0 : Fin 1)]
  unfold seg Cert.ReferenceIdeal.ReadP.val_main_v18
  rw [host_scatterAdd_rows_apply _ rfl rfl rfl rfl, host_scatterAdd_flat_apply _ rfl rfl rfl rfl]
  refine congrArg₂ (· + ·) rfl (Finset.sum_congr rfl fun e _ => ?_)
  rw [edgeRows_right]
  rfl

end Cert.EdgeTables

end
-- ==== Proof.KernelValue.lean ====
/-
  The kernel's result array as the layer's function `G` of the argument arrays.

  The module that reads the blocks leaves the output array at `GK` of the twelve arrays the windows stage, as the region finds
  them. Here those twelve are read in terms of the arguments: the features are the argument itself; the neighbour sums and
  the counts are the two cuts of the extended edge table, which are the reference's two tables entry by entry; a weight
  table is its matrix transposed (the two gate tables the two halves of the gate matrix transposed), the narrower float
  format the identity; a bias row is its vector. So `GK` of them is `G` of the arguments, row by row.
-/
import proofs.«142222_j46694884442362_2_alg».proof.Proof.KernelArray
import proofs.«142222_j46694884442362_2_alg».proof.Proof.KernelHost
import proofs.«142222_j46694884442362_2_alg».proof.Proof.EdgeTables
import Idealize.ShloMosaic.Lib.ValueLayout

noncomputable section

namespace Cert.KernelIdeal.WholeValue

open Cert.KernelIdeal Cert.KernelIdeal.Gen Cert.KernelIdeal.Value Cert.KernelIdeal.ArrayValue Cert.KernelIdeal.HostValue Cert.GatedLayer
open Idealize.ShloMosaic Idealize.ShloMosaic.TcCoe Idealize.SL.Sem Idealize.ShloMosaic.ValueIdx

/-- `GK` at the index of coordinates `(n, d)`. -/
theorem GK_ix2 (A0 A1 : S100000x128.Idx → EReal) (A2 : S100000x1.Idx → EReal) (A3 : S128x128.Idx → EReal) (A4 : S1x128.Idx → EReal)
    (A5 : S128x128.Idx → EReal) (A6 : S1x128.Idx → EReal) (A7 A8 : S128x128.Idx → EReal) (A9 A10 A11 : S1x128.Idx → EReal)
    (n : Fin 100000) (d : Fin 128) :
    GK A0 A1 A2 A3 A4 A5 A6 A7 A8 A9 A10 A11 (ix2 n d)
      = rowOut (fun k => A0 (ix2 n k)) (fun k => A1 (ix2 n k)) (A2 (ix2 n (0 : Fin 1)))
          (fun k d => A3 (ix2 k d)) (fun k d => A5 (ix2 k d)) (fun k d => A7 (ix2 k d)) (fun k d => A8 (ix2 k d))
          (fun d => A4 (ix2 (0 : Fin 1) d)) (fun d => A6 (ix2 (0 : Fin 1) d)) (fun d => A9 (ix2 (0 : Fin 1) d))
          (fun d => A10 (ix2 (0 : Fin 1) d)) (fun d => A11 (ix2 (0 : Fin 1) d)) d := rfl

variable (m : (ℓ : Loc nD τ sig) → Buf (Elt Ideal) ℓ) (ρ : Dev nD → PrngReg)

/-- THE KERNEL'S RESULT ARRAY is `G` of the arguments, with the reference's two edge tables for the neighbour sums and counts. -/
theorem result_eq (c : Dev nD) :
    result m c = G (m ((c : Thread nD τ).loc main_arg0)) (Cert.ReferenceIdeal.ReadP.val_main_v14 (F := Ideal) (m ((c : Thread nD τ).loc main_arg0)) (m ((c : Thread nD τ).loc main_arg1)) (m ((c : Thread nD τ).loc main_arg2))) (Cert.ReferenceIdeal.ReadP.val_main_v18 (F := Ideal) (m ((c : Thread nD τ).loc main_arg2))) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg9)) (m ((c : Thread nD τ).loc main_arg10)) := by
  funext i
  obtain ⟨n, d, rfl⟩ : ∃ (n : Fin 100000) (d : Fin 128), i = ix2 n d := ⟨i 0, i 1, eq_ix2 i⟩
  rw [G_ix2]
  show GK (V m c main_arg0) (V m c main_v12) (V m c main_v13) (V m c main_v15) (V m c main_v23) (V m c main_v17) (V m c main_v24)
    (V m c main_v20) (V m c main_v22) (V m c main_v25) (V m c main_v26) (V m c main_v27) (ix2 n d) = _
  rw [GK_ix2]
  refine congrFun (rowOut_congr ?_ ?_ ?_ ?_ ?_ ?_ ?_ ?_ ?_ ?_ ?_ ?_) d
  · rw [V_main_arg0 m c]
  · funext k; rw [V_v12 m c]; exact Cert.EdgeTables.ns_eq _ _ _ n k
  · rw [V_v13 m c]; exact Cert.EdgeTables.ct_eq _ _ _ n
  · funext k e; rw [V_v15 m c]; exact transpose_ix2_apply _ _ k e
  · funext k e; rw [V_v17 m c]; exact transpose_ix2_apply _ _ k e
  · funext k e; rw [V_v20 m c]
    refine (slice2_axis0_eq 0 _ slices_S256x128_S128x128_0_0 k e).trans ((transpose_ix2_apply _ _ _ e).trans ?_)
    exact congrArg (fun j : Fin 256 => (m ((c : Thread nD τ).loc main_arg7)) (ix2 e j)) (Fin.ext (Nat.zero_add _))
  · funext k e; rw [V_v22 m c]
    exact (slice2_axis0_eq 128 _ slices_S256x128_S128x128_128_0 k e).trans (transpose_ix2_apply _ _ _ e)
  · funext e; rw [V_v23 m c]; exact shapeCast_a_1a_apply _ _ 0 e
  · funext e; rw [V_v24 m c]; exact shapeCast_a_1a_apply _ _ 0 e
  · funext e; rw [V_v25 m c]; exact shapeCast_a_1a_apply _ _ 0 e
  · funext e; rw [V_v26 m c]; exact shapeCast_a_1a_apply _ _ 0 e
  · funext e; rw [V_v27 m c]; exact shapeCast_a_1a_apply _ _ 0 e

/-- The kernel's run with the result array at `G` of the arguments, the arguments unchanged. -/
theorem run : θ_run defs (onTc (τ := τ) (main (F := Ideal))) ⟨m, fun _ => 0, ρ⟩ fun r => ∀ c : Dev nD,
      r.2.mem ((c : Thread nD τ).loc main_v28) = G (m ((c : Thread nD τ).loc main_arg0)) (Cert.ReferenceIdeal.ReadP.val_main_v14 (F := Ideal) (m ((c : Thread nD τ).loc main_arg0)) (m ((c : Thread nD τ).loc main_arg1)) (m ((c : Thread nD τ).loc main_arg2))) (Cert.ReferenceIdeal.ReadP.val_main_v18 (F := Ideal) (m ((c : Thread nD τ).loc main_arg2))) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (result_eq m c)), (h c).2⟩) (run_blocks m ρ)

end Cert.KernelIdeal.WholeValue

end
-- ==== Proof.RefValue.lean ====
/-
  The reference program's result is the layer function `G` of its arguments.

  The reference computes, for every node `n` and output column `d`, the same chain of row operations the
  specification names: two affine maps of a row (`lin`), the neighbour mean (`nmean`), the indicator of "has a
  predecessor" (`hasPred`), the message row (`msg`), the gate (`gate`), the gated mix (`mix`) and layer normalisation
  followed by the positive part (`normRelu`). Each stage below reads one of these at the index of coordinates `(n, d)`.
  The neighbour sums and the counts are carried as they are: nothing here looks inside them.
-/
import proofs.«142222_j46694884442362_2_alg».proof.Proof.RefRead
import proofs.«142222_j46694884442362_2_alg».proof.Proof.Spec
import proofs.«142222_j46694884442362_2_alg».proof.Proof.LibScatterRows
import Idealize.ShloMosaic.Lib.ValueIdx
import Idealize.ShloMosaic.Lib.Pipeline.Value
import Idealize.ShloMosaic.Lib.ValueLayout
import Idealize.ShloMosaic.PureOps.Ideal.Laws
import Mathlib

noncomputable section

open scoped BigOperators

namespace Cert.ReferenceIdeal.RefValue

open Cert.ReferenceIdeal Cert.ReferenceIdeal.Gen Cert.ReferenceIdeal.ReadP Cert.GatedLayer Idealize.ShloMosaic Idealize.ShloMosaic.ValueIdx

/-! ### The self transform: a row of `h` times the transposed table, plus the bias -/

/-- The contraction of the first product reads row `n` of the left operand at column `k`. -/
theorem lidx_v1 (n : Fin 100000) (d k : Fin 128) : lidx_main_v1 (ix2 n d) k = ix2 n k :=
  funext fun a => Fin.ext (by match a with | ⟨0, _⟩ => rfl | ⟨1, _⟩ => rfl)

/-- … and the transposed table at row `k`, column `d`, which is the table at row `d`, column `k`. -/
theorem ridx_v1 (n : Fin 100000) (d k : Fin 128) : idx_main_v0 (ridx_main_v1 (ix2 n d) k) = ix2 d k :=
  funext fun a => Fin.ext (by match a with | ⟨0, _⟩ => rfl | ⟨1, _⟩ => rfl)

/-- The bias, broadcast along the rows, read at column `d`. -/
theorem bias_v3 (n : Fin 100000) (d : Fin 128) : idx_main_v2 (idx_main_v3 (ix2 n d)) = ix1 d :=
  funext fun a => Fin.ext (by match a with | ⟨0, _⟩ => rfl)

theorem v4_eq (x0 : (⟨S100000x128, .f32⟩ : BufTy).Contents (Elt Ideal)) (x3 : (⟨S128x128, .f32⟩ : BufTy).Contents (Elt Ideal))
    (x4 : (⟨S128, .f32⟩ : BufTy).Contents (Elt Ideal)) (n : Fin 100000) (d : Fin 128) :
    val_main_v4 (F := Ideal) x0 x3 x4 (ix2 n d)
      = lin (fun k => x0 (ix2 n k)) (fun k d => x3 (ix2 d k)) (fun d => x4 (ix1 d)) d := by
  rw [val_main_v4_apply, val_main_v1_apply, val_main_v3_apply, val_main_v2_apply, bias_v3]
  simp only [val_main_v0_apply, lidx_v1, ridx_v1, Ideal.addf_def]
  rfl

/-! ### The neighbour mean: the neighbour sum divided by the count raised to at least one -/

/-- The count, kept as a column and broadcast along the row, read at node `n`. -/
theorem cnt_v26 (n : Fin 100000) (k : Fin 128) : idx_main_v25 (idx_main_v26 (ix2 n k)) = ix1 n :=
  funext fun a => Fin.ext (by match a with | ⟨0, _⟩ => rfl)

theorem v27_eq (x0 : (⟨S100000x128, .f32⟩ : BufTy).Contents (Elt Ideal)) (x1 x2 : (⟨S600000, .i32⟩ : BufTy).Contents (Elt Ideal)) (n : Fin 100000) (k : Fin 128) :
    val_main_v27 (F := Ideal) x0 x1 x2 (ix2 n k)
      = nmean (fun k => val_main_v14 (F := Ideal) x0 x1 x2 (ix2 n k)) (val_main_v18 (F := Ideal) x2 (ix1 n)) k := by
  rw [val_main_v27_apply, val_main_v26_apply, val_main_v25_apply, cnt_v26, val_main_v24_apply, val_main_v23_apply,
    val_main_cst_4_apply]
  simp only [Ideal.hostDivf_def, Ideal.maximumf_def, Ideal.ofBits_def]
  rfl

/-! ### The neighbour transform: the mean row times the transposed table, plus the bias -/

theorem lidx_v29 (n : Fin 100000) (d k : Fin 128) : lidx_main_v29 (ix2 n d) k = ix2 n k :=
  funext fun a => Fin.ext (by match a with | ⟨0, _⟩ => rfl | ⟨1, _⟩ => rfl)

theorem ridx_v29 (n : Fin 100000) (d k : Fin 128) : idx_main_v28 (ridx_main_v29 (ix2 n d) k) = ix2 d k :=
  funext fun a => Fin.ext (by match a with | ⟨0, _⟩ => rfl | ⟨1, _⟩ => rfl)

theorem bias_v31 (n : Fin 100000) (d : Fin 128) : idx_main_v30 (idx_main_v31 (ix2 n d)) = ix1 d :=
  funext fun a => Fin.ext (by match a with | ⟨0, _⟩ => rfl)

theorem v32_eq (x0 : (⟨S100000x128, .f32⟩ : BufTy).Contents (Elt Ideal)) (x1 x2 : (⟨S600000, .i32⟩ : BufTy).Contents (Elt Ideal)) (x5 : (⟨S128x128, .f32⟩ : BufTy).Contents (Elt Ideal)) (x6 : (⟨S128, .f32⟩ : BufTy).Contents (Elt Ideal)) (n : Fin 100000) (d : Fin 128) :
    val_main_v32 (F := Ideal) x0 x1 x2 x5 x6 (ix2 n d)
      = lin (nmean (fun k => val_main_v14 (F := Ideal) x0 x1 x2 (ix2 n k)) (val_main_v18 (F := Ideal) x2 (ix1 n)))
          (fun k d => x5 (ix2 d k)) (fun d => x6 (ix1 d)) d := by
  rw [val_main_v32_apply, val_main_v29_apply, val_main_v31_apply, val_main_v30_apply, bias_v31]
  simp only [val_main_v28_apply, lidx_v29, ridx_v29, v27_eq, Ideal.addf_def]
  rfl

/-! ### The indicator of "has a predecessor" -/

theorem cnt_v33 (n : Fin 100000) (d : Fin 128) : idx_main_v22 (idx_main_v33 (ix2 n d)) = ix1 n :=
  funext fun a => Fin.ext (by match a with | ⟨0, _⟩ => rfl)

theorem v33_eq (x2 : (⟨S600000, .i32⟩ : BufTy).Contents (Elt Ideal)) (n : Fin 100000) (d : Fin 128) :
    val_main_v33 (F := Ideal) x2 (ix2 n d) = hasPred (val_main_v18 (F := Ideal) x2 (ix1 n)) := by
  rw [val_main_v33_apply, val_main_v22_apply, cnt_v33, val_main_v21_apply, val_main_v20_apply, val_main_v19_apply,
    val_main_cst_3_apply, Ideal.cmpf_def, Ideal.ofBits_def]
  rfl

/-! ### The message row -/

theorem v35_eq (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 100000) (d : Fin 128) :
    val_main_v35 (F := Ideal) x0 x1 x2 x3 x4 x5 x6 (ix2 n d)
      = msg (fun k => x0 (ix2 n k)) (fun k => val_main_v14 (F := Ideal) x0 x1 x2 (ix2 n k)) (val_main_v18 (F := Ideal) x2 (ix1 n))
          (fun k d => x3 (ix2 d k)) (fun k d => x5 (ix2 d k)) (fun d => x4 (ix1 d)) (fun d => x6 (ix1 d)) d := by
  rw [val_main_v35_apply, val_main_v34_apply, v4_eq, v32_eq, v33_eq]
  simp only [Ideal.addf_def, Ideal.mulf_def]
  rfl

/-! ### The message row of a node, named -/

/-- The message row of node `n`. -/
abbrev mrow (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 100000) : Fin 128 → EReal :=
  msg (fun k => x0 (ix2 n k)) (fun k => val_main_v14 (F := Ideal) x0 x1 x2 (ix2 n k)) (val_main_v18 (F := Ideal) x2 (ix1 n))
    (fun k d => x3 (ix2 d k)) (fun k d => x5 (ix2 d k)) (fun d => x4 (ix1 d)) (fun d => x6 (ix1 d))

/-! ### The gate's contraction: 256 terms, the first 128 against the feature row, the last 128 against the message row -/

/-- Columns 0 … 127 of the joined array are the feature row. -/
theorem v36_left (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 100000) (e : Fin 128) :
    val_main_v36 (F := Ideal) x0 x1 x2 x3 x4 x5 x6 (ix2 n (⟨e.val, by have := e.isLt; omega⟩ : Fin 256)) = x0 (ix2 n e) := by
  unfold val_main_v36
  generalize val_main_v35 (F := Ideal) x0 x1 x2 x3 x4 x5 x6 = y
  exact concatenate_pair_apply_left 1 x0 y concatenates_S100000x128_S100000x128_S100000x256_d1 _ rfl (ix2 n e)
    (fun b => match b with | ⟨0, _⟩ => rfl | ⟨1, _⟩ => rfl)

/-- Columns 128 … 255 of the joined array are the message row. -/
theorem v36_right (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (n : Fin 100000) (k : Fin 128) :
    val_main_v36 (F := Ideal) x0 x1 x2 x3 x4 x5 x6 (ix2 n (⟨128 + k.val, by have := k.isLt; omega⟩ : Fin 256))
      = val_main_v35 (F := Ideal) x0 x1 x2 x3 x4 x5 x6 (ix2 n k) := by
  unfold val_main_v36
  generalize val_main_v35 (F := Ideal) x0 x1 x2 x3 x4 x5 x6 = y
  exact concatenate_pair_apply_right 1 x0 y concatenates_S100000x128_S100000x128_S100000x256_d1 _ rfl rfl (ix2 n k)
    (fun b hb => match b, hb with
      | ⟨0, _⟩, _ => rfl
      | ⟨1, _⟩, hb => absurd rfl hb)
    (Nat.add_comm k.val 128)

theorem lidx_v38 (n : Fin 100000) (d : Fin 128) (k : Fin 256) : lidx_main_v38 (ix2 n d) k = ix2 n k :=
  funext fun a => Fin.ext (by match a with | ⟨0, _⟩ => rfl | ⟨1, _⟩ => rfl)

theorem ridx_v38 (n : Fin 100000) (d : Fin 128) (k : Fin 256) : idx_main_v37 (ridx_main_v38 (ix2 n d) k) = ix2 d k :=
  funext fun a => Fin.ext (by match a with | ⟨0, _⟩ => rfl | ⟨1, _⟩ => rfl)

theorem v38_eq (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (n : Fin 100000) (d : Fin 128) :
    val_main_v38 (F := Ideal) x0 x1 x2 x3 x4 x5 x6 x7 (ix2 n d)
      = (∑ k : Fin 128, x0 (ix2 n k) * x7 (ix2 d (⟨k.val, by have := k.isLt; omega⟩ : Fin 256)))
        + ∑ k : Fin 128, mrow x0 x1 x2 x3 x4 x5 x6 n k * x7 (ix2 d (⟨128 + k.val, by have := k.isLt; omega⟩ : Fin 256)) := by
  rw [val_main_v38_apply]
  simp only [val_main_v37_apply, lidx_v38, ridx_v38]
  rw [Cert.Lib.ScatterRows.sum_fin_add_ereal (by norm_num : 256 = 128 + 128)]
  simp only [v36_left, v36_right, v35_eq]

/-! ### The gate -/

/-- The word of the float literal 1 denotes the number 1. -/
theorem oneW_eq : Ideal.ofBits .f32 0x3F800000#32 = 1 := IdealRules.sign_bit.ideal_onePat .f32

theorem bias_v40 (n : Fin 100000) (d : Fin 128) : idx_main_v39 (idx_main_v40 (ix2 n d)) = ix1 d :=
  funext fun a => Fin.ext (by match a with | ⟨0, _⟩ => rfl)

/-- The gate row of node `n`. -/
abbrev grow (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 100000) : Fin 128 → EReal :=
  gate (fun k => x0 (ix2 n k)) (mrow x0 x1 x2 x3 x4 x5 x6 n)
    (fun k d => x7 (ix2 d (⟨k.val, by have := k.isLt; omega⟩ : Fin 256)))
    (fun k d => x7 (ix2 d (⟨128 + k.val, by have := k.isLt; omega⟩ : Fin 256))) (fun d => x8 (ix1 d))

theorem v47_eq (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 100000) (d : Fin 128) :
    val_main_v47 (F := Ideal) x0 x1 x2 x3 x4 x5 x6 x7 x8 (ix2 n d) = grow x0 x1 x2 x3 x4 x5 x6 x7 x8 n d := by
  rw [val_main_v47_apply, val_main_v46_apply, val_main_cst_6_apply, val_main_v45_apply, val_main_v44_apply,
    val_main_cst_5_apply, val_main_v43_apply, val_main_v42_apply, val_main_v41_apply, v38_eq, val_main_v40_apply,
    val_main_v39_apply, bias_v40]
  simp only [Ideal.hostDivf_def, Ideal.addf_def, Ideal.hostUnary_exp_def, Ideal.hostNegf_def, Ideal.negf_def,
    Ideal.ofBits_def, oneW_eq]
  rfl

/-! ### The gated mix -/

/-- The mixed row of node `n`. -/
abbrev vrow (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 100000) : Fin 128 → EReal :=
  mix (fun k => x0 (ix2 n k)) (mrow x0 x1 x2 x3 x4 x5 x6 n) (grow x0 x1 x2 x3 x4 x5 x6 x7 x8 n)

theorem v52_eq (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 100000) (d : Fin 128) :
    val_main_v52 (F := Ideal) x0 x1 x2 x3 x4 x5 x6 x7 x8 (ix2 n d) = vrow x0 x1 x2 x3 x4 x5 x6 x7 x8 n d := by
  rw [val_main_v52_apply, val_main_v48_apply, val_main_v51_apply, val_main_v50_apply, val_main_v49_apply,
    val_main_cst_7_apply, v47_eq, v35_eq]
  simp only [Ideal.addf_def, Ideal.mulf_def, Ideal.subf_def, Ideal.ofBits_def]
  rfl

/-! ### The mean of the mixed row: the sum of its 128 entries (from the float 0) divided by the float 128 -/

theorem row_v54 (n : Fin 100000) : idx_main_v54 (ix2 n (0 : Fin 1)) = ix1 n :=
  funext fun a => Fin.ext (by match a with | ⟨0, _⟩ => rfl)

theorem col_v53 (n : Fin 100000) (k : Fin 128) : idx_main_v53 (ix1 n) k = ix2 n k :=
  funext fun a => Fin.ext (by match a with | ⟨0, _⟩ => rfl | ⟨1, _⟩ => rfl)

theorem v56_eq (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 100000) :
    val_main_v56 (F := Ideal) x0 x1 x2 x3 x4 x5 x6 x7 x8 (ix2 n (0 : Fin 1)) = mean (vrow x0 x1 x2 x3 x4 x5 x6 x7 x8 n) := by
  rw [val_main_v56_apply, val_main_v54_apply, row_v54, val_main_v53_apply, val_main_cst_8_apply, val_main_v55_apply,
    val_main_cst_9_apply]
  simp only [col_v53, v52_eq, Ideal.hostDivf_def, Ideal.ofBits_def, Ideal.ofBits_zero_f32, zero_add]
  rfl

/-! ### The mean square deviation of the mixed row -/

/-- The mean, kept as a column and broadcast along the row, read at node `n`. -/
theorem keep_v57 (n : Fin 100000) (d : Fin 128) : idx_main_v57 (ix2 n d) = ix2 n (0 : Fin 1) :=
  funext fun a => Fin.ext (by match a with | ⟨0, _⟩ => rfl | ⟨1, _⟩ => rfl)

theorem row_v61 (n : Fin 100000) : idx_main_v61 (ix2 n (0 : Fin 1)) = ix1 n :=
  funext fun a => Fin.ext (by match a with | ⟨0, _⟩ => rfl)

theorem col_v60 (n : Fin 100000) (k : Fin 128) : idx_main_v60 (ix1 n) k = ix2 n k :=
  funext fun a => Fin.ext (by match a with | ⟨0, _⟩ => rfl | ⟨1, _⟩ => rfl)

theorem v63_eq (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (n : Fin 100000) :
    val_main_v63 (F := Ideal) x0 x1 x2 x3 x4 x5 x6 x7 x8 (ix2 n (0 : Fin 1))
      = mean (fun e => (vrow x0 x1 x2 x3 x4 x5 x6 x7 x8 n e - mean (vrow x0 x1 x2 x3 x4 x5 x6 x7 x8 n))
          * (vrow x0 x1 x2 x3 x4 x5 x6 x7 x8 n e - mean (vrow x0 x1 x2 x3 x4 x5 x6 x7 x8 n))) := by
  rw [val_main_v63_apply, val_main_v61_apply, row_v61, val_main_v60_apply, val_main_cst_10_apply, val_main_v62_apply,
    val_main_cst_11_apply]
  simp only [col_v60, val_main_v59_apply, val_main_v58_apply, val_main_v57_apply, keep_v57, v52_eq, v56_eq,
    Ideal.hostDivf_def, Ideal.mulf_def, Ideal.subf_def, Ideal.ofBits_def, Ideal.ofBits_zero_f32, zero_add]
  rfl

/-! ### Normalisation, the affine map and the positive part -/

theorem keep_v64 (n : Fin 100000) (d : Fin 128) : idx_main_v64 (ix2 n d) = ix2 n (0 : Fin 1) :=
  funext fun a => Fin.ext (by match a with | ⟨0, _⟩ => rfl | ⟨1, _⟩ => rfl)

theorem keep_v69 (n : Fin 100000) (d : Fin 128) : idx_main_v69 (ix2 n d) = ix2 n (0 : Fin 1) :=
  funext fun a => Fin.ext (by match a with | ⟨0, _⟩ => rfl | ⟨1, _⟩ => rfl)

theorem scale_v72 (n : Fin 100000) (d : Fin 128) : idx_main_v71 (idx_main_v72 (ix2 n d)) = ix1 d :=
  funext fun a => Fin.ext (by match a with | ⟨0, _⟩ => rfl)

theorem shift_v75 (n : Fin 100000) (d : Fin 128) : idx_main_v74 (idx_main_v75 (ix2 n d)) = ix1 d :=
  funext fun a => Fin.ext (by match a with | ⟨0, _⟩ => rfl)

theorem v77_eq (x0 : (⟨S100000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (n : Fin 100000) (d : Fin 128) :
    val_main_v77 (F := Ideal) x0 x1 x2 x3 x4 x5 x6 x7 x8 x9 x10 (ix2 n d)
      = normRelu (vrow x0 x1 x2 x3 x4 x5 x6 x7 x8 n) (fun d => x9 (ix1 d)) (fun d => x10 (ix1 d)) d := by
  rw [val_main_v77_apply, val_main_call0_v0_apply, val_main_call0_cst_apply, val_main_v76_apply, val_main_v75_apply,
    val_main_v74_apply, shift_v75, val_main_v73_apply, val_main_v72_apply, val_main_v71_apply, scale_v72,
    val_main_v70_apply, val_main_v69_apply, keep_v69, val_main_v68_apply, val_main_v67_apply, v63_eq,
    val_main_v66_apply, val_main_cst_12_apply, val_main_v65_apply, val_main_v64_apply, keep_v64, v56_eq, v52_eq]
  simp only [Ideal.maximumf_def, Ideal.addf_def, Ideal.mulf_def, Ideal.subf_def, Ideal.hostUnary_rsqrt_def,
    Ideal.ofBits_def]
  rfl

/-! ### The reference's result is `G` of its arguments -/

theorem ref_eq (x0 : (⟨S100000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x256, .f32⟩ : BufTy).Contents (Elt Ideal)) (x8 x9 x10 : (⟨S128, .f32⟩ : BufTy).Contents (Elt Ideal)) :
    val_main_v77 (F := Ideal) x0 x1 x2 x3 x4 x5 x6 x7 x8 x9 x10
      = G x0 (val_main_v14 (F := Ideal) x0 x1 x2) (val_main_v18 (F := Ideal) x2) x3 x5 x7 x4 x6 x8 x9 x10 := by
  funext i
  obtain ⟨n, d, rfl⟩ : ∃ (n : Fin 100000) (d : Fin 128), i = ix2 n d := ⟨i 0, i 1, eq_ix2 i⟩
  rw [G_ix2, v77_eq]
  rfl

end Cert.ReferenceIdeal.RefValue

end
-- ==== Proof.lean ====
/-
  A gated message-passing layer over a graph of 100000 nodes with 128 features and 600000 edges: the kernel's program against
  its plain reference, equal as extended reals, element by element.

  Both programs compute, for every node, the sum of its predecessors' feature rows and the number of its predecessors (a
  scatter-add over the edges, on the host), and then a dense per-node stage: a self transform, the transform of the
  neighbour mean masked by "has a predecessor", a logistic gate of the features and the message, the gated mix, a layer
  normalisation with an affine map, and the positive part. The kernel's program fuses the two scatter-adds into one over
  rows extended by a 1, cuts the result apart again, and runs the dense stage in a kernel over 25 tiles of 4000 rows, with
  the gate's matrix product over 256 columns split into two products over 128; the reference runs everything on whole arrays.

  The proof: one specification `G` of the argument arrays (Proof/Spec.lean), a per-row function. The reference's result is
  `G` (its run, and its stages read one operation at a time; the one algebraic step is splitting the gate's sum over 256
  terms into two sums over 128, valid in any commutative monoid — no finiteness of the inputs is used anywhere). The kernel's
  stored block is the per-row function of its loaded blocks, the blocks tile the rows, and the arrays the windows stage are
  the arguments re-laid (the extended edge table read entry by entry against the reference's two tables), so the kernel's
  result array is `G` of the same arguments. The three frames are the programs' runs with the values dropped; the idealized
  kernel is the kernel's own text read at the extended reals, so nothing is owed for it.
-/
import proofs.«142222_j46694884442362_2_alg».proof.Defs
import proofs.«142222_j46694884442362_2_alg».proof.Proof.Gen.Kernel
import proofs.«142222_j46694884442362_2_alg».proof.Proof.Gen.Kernel.Frame
import proofs.«142222_j46694884442362_2_alg».proof.Proof.Gen.KernelIdeal
import proofs.«142222_j46694884442362_2_alg».proof.Proof.Gen.KernelIdeal.Frame
import proofs.«142222_j46694884442362_2_alg».proof.Proof.Gen.KernelIdeal.Value
import proofs.«142222_j46694884442362_2_alg».proof.Proof.Gen.ReferenceIdeal
import proofs.«142222_j46694884442362_2_alg».proof.Proof.Gen.Pre_finite_inputs
import proofs.«142222_j46694884442362_2_alg».proof.Proof.KernelValue
import proofs.«142222_j46694884442362_2_alg».proof.Proof.RefRun
import proofs.«142222_j46694884442362_2_alg».proof.Proof.RefValue
import Idealize.ShloMosaic.Adequacy
import Idealize.ShloMosaic.Init

noncomputable section

namespace Cert.Proof

open Idealize.ShloMosaic Idealize.SL.Sem Cert.GatedLayer

/-- The kernel's program runs and leaves its arguments unchanged. -/
theorem frame_k : Cert.frame_Kernel := fun m ρ _ => Cert.Kernel.Gen.frame m ρ

/-- So does the kernel's program read at the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel is the kernel's own text: no rewrite was applied. -/
theorem preserves : Cert.preserves_Kernel_KernelIdeal := trivial

/-- From memories agreeing on the arguments, both programs end with the result array at `G` of the arguments. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (Cert.ReferenceIdeal.ReadP.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.ReferenceIdeal.ReadP.val_main_v18 (F := Ideal) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.WholeValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10⟩ := hagree c
  rw [a0, a1, a2, a3, a4, a5, a6, a7, a8, a9, a10]
  exact Cert.ReferenceIdeal.RefValue.ref_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
